-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 111
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .bf16⟩
  | .hbm, ⟨50, _⟩ => ⟨S128x128, .bf16⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .bf16⟩
  | .hbm, ⟨75, _⟩ => ⟨S128x16, .bf16⟩
  | .hbm, ⟨76, _⟩ => ⟨S100000x16, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x16, .f32⟩
  | .hbm, ⟨86, _⟩ => ⟨S1700000x1, .f32⟩
  | .hbm, ⟨87, _⟩ => ⟨S1700000x16, .f32⟩
  | .hbm, ⟨88, _⟩ => ⟨S1700000x16, .f32⟩
  | .hbm, ⟨89, _⟩ => ⟨S_, .f32⟩
  | .hbm, ⟨90, _⟩ => ⟨S100000x16, .f32⟩
  | .hbm, ⟨91, _⟩ => ⟨S1700000x1, .i32⟩
  | .hbm, ⟨92, _⟩ => ⟨S100000x16, .f32⟩
  | .hbm, ⟨93, _⟩ => ⟨S1x16, .f32⟩
  | .hbm, ⟨94, _⟩ => ⟨S100000x16, .f32⟩
  | .hbm, ⟨95, _⟩ => ⟨S100000x16, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000x1, .f32⟩
  | .hbm, ⟨102, _⟩ => ⟨S100000x16, .f32⟩
  | .hbm, ⟨103, _⟩ => ⟨S100000x16, .f32⟩
  | .hbm, ⟨104, _⟩ => ⟨S100000x16, .f32⟩
  | .hbm, ⟨105, _⟩ => ⟨S_, .f32⟩
  | .hbm, ⟨106, _⟩ => ⟨S100000, .f32⟩
  | .hbm, ⟨107, _⟩ => ⟨S100000x1, .f32⟩
  | .hbm, ⟨108, _⟩ => ⟨S100000x1, .f32⟩
  | .hbm, ⟨109, _⟩ => ⟨S100000x16, .f32⟩
  | .hbm, ⟨110, _⟩ => ⟨S100000x16, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x16, .bf16⟩
  | .local _ .vmem, ⟨8, _⟩ => ⟨S10000x16, .f32⟩
  | .local _ .vmem, ⟨9, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call2_cst : Ref sig .tc := ⟨.hbm, 96, rfl⟩
abbrev main_call2_v0 : Ref sig .tc := ⟨.hbm, 97, rfl⟩
abbrev main_call2_cst_0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_cst_1 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_v71 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x16_S10000x16_1_0_0_1_n_n_wf : DotDims.WF S10000x128 S128x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .bf16 = 32 ∨ (Rect.block (s := S128x16) S128x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_v32) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x16, .f32⟩
  | 5 => ⟨S16, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x16, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S_, .f32⟩
  | 83 => ⟨S100000, .f32⟩
  | 84 => ⟨S100000, .f32⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x16, .f32⟩
  | 118 => ⟨S1700000x1, .f32⟩
  | 119 => ⟨S1700000x16, .f32⟩
  | 120 => ⟨S1700000x16, .f32⟩
  | 121 => ⟨S_, .f32⟩
  | 122 => ⟨S100000x16, .f32⟩
  | 123 => ⟨S1700000x1, .i32⟩
  | 124 => ⟨S100000x16, .f32⟩
  | 125 => ⟨S1x16, .f32⟩
  | 126 => ⟨S100000x16, .f32⟩
  | 127 => ⟨S100000x16, .f32⟩
  | _ => ⟨S100000x128, .f32⟩

abbrev hbmTy0_1 (i : Nat) : BufTy := match i % 128 with
  | 0 => ⟨S_, .f32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x16, .f32⟩
  | 7 => ⟨S100000x16, .f32⟩
  | 8 => ⟨S100000x16, .f32⟩
  | 9 => ⟨S_, .f32⟩
  | 10 => ⟨S100000, .f32⟩
  | 11 => ⟨S100000x1, .f32⟩
  | 12 => ⟨S100000x1, .f32⟩
  | 13 => ⟨S100000x16, .f32⟩
  | 14 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v92 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.LibReadBack.lean ====
/-
  Reading a fold of host operations back at one buffer. The fold `after ops V` applies each operation's result map in
  order. Read at a buffer, it is the value, at the operands' contents, of the function of the last operation that
  writes the buffer; an operation that does not write the buffer leaves what was there; and the operands' contents are
  the fold of the earlier operations read at the operands' buffers, and so on down to the starting contents `V`.
  Unfolding this recursion turns the fold into the composed term of the operations' functions over `V` at the buffers
  no operation writes. It is done in two sweeps: one rewriting sweep over the whole term, which does not reach an
  operand that sits inside a list of shaped pieces (the pieces of a concatenation), and a loop of single rewrites that
  finishes those.
-/
import Idealize.ShloMosaic.Lib.StableHlo.Run

namespace Cert.Lib

open Idealize.ShloMosaic Idealize.ShloMosaic.StableHlo

/-- What the first sweep leaves: each remaining operation's result read at its own buffer becomes its function's value,
    and read at any other buffer what was there before. -/
macro "read_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- A fold of host operations read at a buffer, unfolded to the composed term: the sweep, then the loop. -/
macro "read_back" : tactic => `(tactic| (after_results_simp; read_results))

end Cert.Lib
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.RefValue.lean ====
/-
  The reference's run, read back. The reference is 137 host operations in a line; after them its result buffer holds
  the fold of those operations over the launch memory, read at the result. Read back operation by operation, that is
  the staged function of the six arguments: the index vectors, the degrees and edge weights, the first product, the
  gather, scaling and scatter-add of its rows, bias and cut at zero, the second product, the same aggregation with the
  second bias, and the row-wise logarithmic softmax. The outlined host functions pass their arguments and results
  through typed references; at each of the main program's buffers they touch, that transport is the identity.
-/
import proofs.«132132_j15530601743096_1_alg».proof.Proof.RefRun
import proofs.«132132_j15530601743096_1_alg».proof.Proof.RefRead
import proofs.«132132_j15530601743096_1_alg».proof.Proof.LibReadBack
import proofs.«132132_j15530601743096_1_alg».proof.Proof.LibTypedRef

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.RunP

theorem to_v17 (h1 h2 h3) (v : (⟨S100000, .f32⟩ : BufTy).Contents (Elt Ideal)) :
    (TRef.of (sig := sig) (T := ⟨S100000, .f32⟩) main_v17 h1 h2 h3).toBuf v = v := rfl
theorem to_v49 (h1 h2 h3) (v : (⟨S100000x128, .f32⟩ : BufTy).Contents (Elt Ideal)) :
    (TRef.of (sig := sig) (T := ⟨S100000x128, .f32⟩) main_v49 h1 h2 h3).toBuf v = v := rfl
theorem to_v60 (h1 h2 h3) (v : (⟨S100000, .f32⟩ : BufTy).Contents (Elt Ideal)) :
    (TRef.of (sig := sig) (T := ⟨S100000, .f32⟩) main_v60 h1 h2 h3).toBuf v = v := rfl
theorem to_v92 (h1 h2 h3) (v : (⟨S100000x16, .f32⟩ : BufTy).Contents (Elt Ideal)) :
    (TRef.of (sig := sig) (T := ⟨S100000x16, .f32⟩) main_v92 h1 h2 h3).toBuf v = v := rfl
theorem of_v13 (h1 h2 h3) (v : (⟨S100000, .i1⟩ : BufTy).Contents (Elt Ideal)) :
    (TRef.of (sig := sig) (T := ⟨S100000, .i1⟩) main_v13 h1 h2 h3).ofBuf v = v := rfl
theorem of_v16 (h1 h2 h3) (v : (⟨S100000, .f32⟩ : BufTy).Contents (Elt Ideal)) :
    (TRef.of (sig := sig) (T := ⟨S100000, .f32⟩) main_v16 h1 h2 h3).ofBuf v = v := rfl
theorem of_cst_3 (h1 h2 h3) (v : (⟨S_, .f32⟩ : BufTy).Contents (Elt Ideal)) :
    (TRef.of (sig := sig) (T := ⟨S_, .f32⟩) main_cst_3 h1 h2 h3).ofBuf v = v := rfl
theorem of_v48 (h1 h2 h3) (v : (⟨S100000x128, .f32⟩ : BufTy).Contents (Elt Ideal)) :
    (TRef.of (sig := sig) (T := ⟨S100000x128, .f32⟩) main_v48 h1 h2 h3).ofBuf v = v := rfl
theorem of_v56 (h1 h2 h3) (v : (⟨S100000, .i1⟩ : BufTy).Contents (Elt Ideal)) :
    (TRef.of (sig := sig) (T := ⟨S100000, .i1⟩) main_v56 h1 h2 h3).ofBuf v = v := rfl
theorem of_v59 (h1 h2 h3) (v : (⟨S100000, .f32⟩ : BufTy).Contents (Elt Ideal)) :
    (TRef.of (sig := sig) (T := ⟨S100000, .f32⟩) main_v59 h1 h2 h3).ofBuf v = v := rfl
theorem of_cst_14 (h1 h2 h3) (v : (⟨S_, .f32⟩ : BufTy).Contents (Elt Ideal)) :
    (TRef.of (sig := sig) (T := ⟨S_, .f32⟩) main_cst_14 h1 h2 h3).ofBuf v = v := rfl
theorem of_v91 (h1 h2 h3) (v : (⟨S100000x16, .f32⟩ : BufTy).Contents (Elt Ideal)) :
    (TRef.of (sig := sig) (T := ⟨S100000x16, .f32⟩) main_v91 h1 h2 h3).ofBuf v = v := rfl

variable (m : (ℓ : Loc nD τ sig) → Buf (Elt Ideal) ℓ)

set_option maxHeartbeats 40000000 in
/-- The fold of the reference's operations, read at its result, is the staged function of the arguments. -/
theorem result_eq (c : Dev nD) :
    after (ops (F := Ideal)) (launchContents m c) (Proc.devRef .tc main_v92)
      = val_main_v92 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  read_back
  simp only [Cert.Lib.ofBuf_toBuf, Cert.Lib.toBuf_ofBuf, to_v17, to_v49, to_v60, to_v92, of_v13, of_v16, of_cst_3, of_v48,
    of_v56, of_v59, of_cst_14, of_v91]
  rfl

end Cert.ReferenceIdeal.RefValue

end
-- ==== Proof.ValueRun.lean ====
/-
  The idealized kernel program's run with its result named. The program is host operations, a row-tiled product, host
  operations, a second row-tiled product, and host operations again. Every weakly fair execution terminates without a
  fault; at the end every buffer the program does not scope holds the contents obtained by folding the host operations
  and the two products' write-backs over the launch memory, in program order. In particular the result buffer holds
  that fold's value at the result, and the six argument arrays are as launched.
-/
import proofs.«132132_j15530601743096_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.ValueRun

end
-- ==== Proof.KernelCasts.lean ====
/-
  The three host functions the tracer outlined (a select against a splat, a cut at zero, a logarithmic softmax) read
  their arguments from, and write their result to, buffers of the main program through typed references. Entering and
  leaving such a function carries contents between a buffer's own type and the value's type; for each of these
  buffers the two types are the same type, and the transport is the identity.
-/
import proofs.«132132_j15530601743096_1_alg».proof.Proof.Gen.KernelIdeal
import Idealize.ShloMosaic.PureOps.Ideal
import Idealize.ShloMosaic.Lib.StableHlo

noncomputable section

namespace Cert.KernelIdeal.Casts

open Cert.KernelIdeal Idealize.ShloMosaic Idealize.ShloMosaic.StableHlo

/-! Results written back to the main program's buffers. -/
theorem to_v16 (h1 h2 h3) (v : (⟨S100000, .f32⟩ : BufTy).Contents (Elt Ideal)) :
    (TRef.of (sig := sig) (T := ⟨S100000, .f32⟩) main_v16 h1 h2 h3).toBuf v = v := rfl
theorem to_v51 (h1 h2 h3) (v : (⟨S100000x128, .f32⟩ : BufTy).Contents (Elt Ideal)) :
    (TRef.of (sig := sig) (T := ⟨S100000x128, .f32⟩) main_v51 h1 h2 h3).toBuf v = v := rfl
theorem to_v71 (h1 h2 h3) (v : (⟨S100000x16, .f32⟩ : BufTy).Contents (Elt Ideal)) :
    (TRef.of (sig := sig) (T := ⟨S100000x16, .f32⟩) main_v71 h1 h2 h3).toBuf v = v := rfl

/-! Arguments read from the main program's buffers. -/
theorem of_v12 (h1 h2 h3) (v : (⟨S100000, .i1⟩ : BufTy).Contents (Elt Ideal)) :
    (TRef.of (sig := sig) (T := ⟨S100000, .i1⟩) main_v12 h1 h2 h3).ofBuf v = v := rfl
theorem of_v15 (h1 h2 h3) (v : (⟨S100000, .f32⟩ : BufTy).Contents (Elt Ideal)) :
    (TRef.of (sig := sig) (T := ⟨S100000, .f32⟩) main_v15 h1 h2 h3).ofBuf v = v := rfl
theorem of_cst_3 (h1 h2 h3) (v : (⟨S_, .f32⟩ : BufTy).Contents (Elt Ideal)) :
    (TRef.of (sig := sig) (T := ⟨S_, .f32⟩) main_cst_3 h1 h2 h3).ofBuf v = v := rfl
theorem of_v50 (h1 h2 h3) (v : (⟨S100000x128, .f32⟩ : BufTy).Contents (Elt Ideal)) :
    (TRef.of (sig := sig) (T := ⟨S100000x128, .f32⟩) main_v50 h1 h2 h3).ofBuf v = v := rfl
theorem of_v70 (h1 h2 h3) (v : (⟨S100000x16, .f32⟩ : BufTy).Contents (Elt Ideal)) :
    (TRef.of (sig := sig) (T := ⟨S100000x16, .f32⟩) main_v70 h1 h2 h3).ofBuf v = v := rfl

end Cert.KernelIdeal.Casts

end
-- ==== Proof.Stage0.lean ====
/-
  The host operations before the first product, read at the buffers the rest of the program uses. From the edge list
  they build the source and target index vectors (each edge row followed by the self loops 0 … 99999), the degree of
  every node (a scatter-add of ones at the targets), its inverse square root where the degree is positive and zero
  elsewhere, and the edge weights (that value gathered at the source times the same gathered at the target). The two
  operands of the first product are the node features and the first weight matrix, narrowed. Each of these is the
  same chain of operations as the reference applies to the same arguments, so each equals the reference's stage.
-/
import proofs.«132132_j15530601743096_1_alg».proof.Proof.Gen.KernelIdeal.Frame
import proofs.«132132_j15530601743096_1_alg».proof.Proof.RefRead
import proofs.«132132_j15530601743096_1_alg».proof.Proof.LibReadBack
import proofs.«132132_j15530601743096_1_alg».proof.Proof.LibTypedRef
import proofs.«132132_j15530601743096_1_alg».proof.Proof.KernelCasts

noncomputable section

namespace Cert.KernelIdeal.Stage0

open Cert.KernelIdeal Cert.KernelIdeal.Gen Idealize.ShloMosaic Idealize.ShloMosaic.TcCoe Idealize.SL.Sem Idealize.ShloMosaic.StableHlo
open Cert.ReferenceIdeal.ReadP Cert.Lib

variable (m : (ℓ : Loc nD τ sig) → Buf (Elt Ideal) ℓ) (ρ : Dev nD → PrngReg)

/-- Core c's argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-- The source indices: the first edge row, then the self loops. -/
theorem src (c : Dev nD) : W3 m ρ c (Proc.devRef .tc main_v3) = val_main_v3 (F := Ideal) (a1 m c) := by
  dsimp only [W3, W2, W1, hostOps0_2, hostOps0_1, hostOps0]
  read_back
  rfl

/-- The target indices: the second edge row, then the self loops. -/
theorem dst (c : Dev nD) : W3 m ρ c (Proc.devRef .tc main_v6) = val_main_v6 (F := Ideal) (a1 m c) := by
  dsimp only [W3, W2, W1, hostOps0_2, hostOps0_1, hostOps0]
  read_back
  rfl

/-- The edge weights: the inverse square root of the degree at the source times the same at the target. -/
theorem weight (c : Dev nD) : W3 m ρ c (Proc.devRef .tc main_v31) = val_main_v32 (F := Ideal) (a1 m c) := by
  dsimp only [W3, W2, W1, hostOps0_2, hostOps0_1, hostOps0]
  read_back
  simp only [Cert.Lib.ofBuf_toBuf, Cert.Lib.toBuf_ofBuf, Casts.to_v16, Casts.to_v51, Casts.to_v71, Casts.of_v12, Casts.of_v15,
    Casts.of_cst_3, Casts.of_v50, Casts.of_v70]
  rfl

/-- The first product's left operand: the node features, narrowed. -/
theorem lhs (c : Dev nD) : W3 m ρ c (Proc.devRef .tc main_v32) = truncf (F := Ideal) (s := S100000x128) (φ := .f32) .bf16 (a0 m c) Facts₀.bitsLt_bf16_f32 := by
  dsimp only [W3, W2, W1, hostOps0_2, hostOps0_1, hostOps0]
  read_back

/-- The first product's right operand: the first weight matrix, narrowed. -/
theorem rhs (c : Dev nD) : W3 m ρ c (Proc.devRef .tc main_v33) = truncf (F := Ideal) (s := S128x128) (φ := .f32) .bf16 (a2 m c) Facts₀.bitsLt_bf16_f32 := by
  dsimp only [W3, W2, W1, hostOps0_2, hostOps0_1, hostOps0]
  read_back

/-- The arguments read later are untouched. -/
theorem keep3 (c : Dev nD) : W3 m ρ c (Proc.devRef .tc main_arg3) = a3 m c := by
  dsimp only [W3, W2, W1, hostOps0_2, hostOps0_1, hostOps0]
  read_back
theorem keep4 (c : Dev nD) : W3 m ρ c (Proc.devRef .tc main_arg4) = a4 m c := by
  dsimp only [W3, W2, W1, hostOps0_2, hostOps0_1, hostOps0]
  read_back
theorem keep5 (c : Dev nD) : W3 m ρ c (Proc.devRef .tc main_arg5) = a5 m c := by
  dsimp only [W3, W2, W1, hostOps0_2, hostOps0_1, hostOps0]
  read_back

end Cert.KernelIdeal.Stage0

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«132132_j15530601743096_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.Products.lean ====
/-
  What the first row-tiled product leaves in its output array. The grid has ten points; point t multiplies rows
  10000·t … 10000·t + 9999 of the left array by the whole right array and writes the band back to the same rows of
  the output. A band of rows of a matrix product is the product of that band of rows with the right factor, and the
  ten bands cover all 100000 rows, so the output array ends as the product of the two whole arrays, entry by entry:
  entry (p, q) is the sum over k of left (p, k) · right (k, q).
-/
import proofs.«132132_j15530601743096_1_alg».proof.Proof.Gen.KernelIdeal.Frame
import proofs.«132132_j15530601743096_1_alg».proof.Proof.LibMatProd
import Idealize.ShloMosaic.Lib.Pipeline.Value

noncomputable section

namespace Cert.KernelIdeal.Products

open Cert.KernelIdeal Cert.KernelIdeal.Gen Idealize.ShloMosaic Idealize.ShloMosaic.TcCoe Idealize.ShloMosaic.ValueIdx Idealize.SL.Sem
open Idealize.ShloMosaic.Pipeline (Dat)
open Cert.LibMatProd Cert.LibPlainDot

theorem off_zero : (![0, 0] : Fin 2 → Nat) = fun _ => 0 := funext fun a => by fin_cases a <;> rfl

/-- One point's arithmetic: the matrix unit's product of the two loaded blocks into a zero accumulator is their
    matrix product. -/
theorem band0 (x0 : FVec Ideal S10000x128 .bf16) (x1 : FVec Ideal S128x128 .bf16) :
    k0_pay1 (F := Ideal) x0 x1 = matProd (M := 10000) (K := 128) (N := 128) x0 x1 := by
  funext j
  obtain ⟨p, q, rfl⟩ : ∃ (p : Fin 10000) (q : Fin 128), j = ix2 p q := ⟨j 0, j 1, eq_ix2 j⟩
  show matmul (F := Ideal) dot_S10000x128_S128x128_S10000x128_1_0_0_1_n_n none (shapeCast S10000x128 x0 Facts₀.shapeCasts_S10000x128_S10000x128)
      (shapeCast S128x128 x1 Facts₀.shapeCasts_S128x128_S128x128) (constant S10000x128 .f32 0x00000000#32) (ix2 p q) = _
  rw [shapeCast_self, shapeCast_self, matProd_apply]
  refine (Ideal.matmul_constant_zero_apply dot_S10000x128_S128x128_S10000x128_1_0_0_1_n_n none _ _ (ix2 p q)).trans ?_
  exact plain_sum dot_S10000x128_S128x128_S10000x128_1_0_0_1_n_n rfl rfl rfl rfl rfl rfl x0 x1 p q

/-- The printed block indices over the grid: the left operand and the output move down one band per point, the right
    operand stays. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Point t's left block holds rows 10000·t … of the left array. -/
theorem left0 (c : Dev nD) (t : Fin cfg0.N) (p : Fin 10000) (k : Fin 128) (hp : t.val * 10000 + p.val < 100000) :
    iblk0 V c 0 t (ix2 p k) = V c main_v32 (ix2 ⟨t.val * 10000 + p.val, hp⟩ k) := by
  obtain ⟨e0, e1, -, -, -, -⟩ := where0 t
  show V c main_v32 (((cfg0.win 0).blk t).view.emb (ix2 p k)) = V c main_v32 (ix2 ⟨t.val * 10000 + p.val, hp⟩ k)
  refine congrArg (V c main_v32) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- Point t's right block is the whole right array. -/
theorem right0 (c : Dev nD) (t : Fin cfg0.N) (z : S128x128.Idx) : iblk0 V c 1 t z = V c main_v33 z := by
  obtain ⟨-, -, e2, e3, -, -⟩ := where0 t
  show V c main_v33 (((cfg0.win 1).blk t).view.emb z) = V c main_v33 z
  refine congrArg (V c main_v33) (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- What point t writes back is band t of the product of the two whole arrays. -/
theorem flushed0 (c : Dev nD) (t : Fin cfg0.N) :
    (dat0 V c).flushed 2 t = ((cfg0.win 2).blk t).view.read (Elt Ideal)
      (matProd (M := 100000) (K := 128) (N := 128) (V c main_v32) (V c main_v33)) := by
  show (cfg0.win 2).cut (grid0.coords t) ((dat0 V c).after 2 t) = _
  rw [after0_2]
  unfold out0_2
  rw [View.canon_unit_zero off_zero]
  simp only [View.ld_unit_zero (S := S10000x128) off_zero, View.ld_unit_zero (S := S128x128) off_zero]
  rw [band0]
  obtain ⟨-, -, -, -, e4, e5⟩ := where0 t
  funext y
  show matProd (M := 10000) (K := 128) (N := 128) (iblk0 V c 0 t) (iblk0 V c 1 t) y
    = matProd (M := 100000) (K := 128) (N := 128) (V c main_v32) (V c main_v33) (((cfg0.win 2).blk t).view.emb y)
  refine matProd_rows (V c main_v32) (V c main_v33) (iblk0 V c 0 t) (iblk0 V c 1 t) (t.val * 10000)
    (fun p k hp => left0 V c t p k hp) (fun z => right0 V c t z) y _ ?_ ?_
  · show win0_2.index t (0 : Fin 2) * 10000 + 1 * (y 0).val = t.val * 10000 + (y 0).val; omega
  · show win0_2.index t (1 : Fin 2) * 128 + 1 * (y 1).val = (y 1).val; omega

/-- An index of the output array lies in point t's block iff each coordinate lies in the block's range. -/
theorem mem_band0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v34).slice (win0_2.rect t)).set ↔ _
  rw [View.set_slice_whole, Rect.mem_set_unit]
  exact Iff.rfl

/-- Row r of the output lies in the band of point r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, e4, e5⟩ := where0 t
  have e4' : win0_2.index t (0 : Fin 2) = (i 0).val / 10000 := e4
  refine ⟨t, flush0_2 t, ?_⟩
  rw [mem_band0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the ten points: the product of the two whole arrays as the region found them. -/
theorem final0 (c : Dev nD) :
    (dat0 V c).arrAt 2 cfg0.N = matProd (M := 100000) (K := 128) (N := 128) (V c main_v32) (V c main_v33) :=
  (dat0 V c).arrAt_eq_of_cover 2 _ (fun t _ => flushed0 V c t) cover0

end Cert.KernelIdeal.Products

end
-- ==== Proof.Stage1.lean ====
/-
  The first product and what survives it. The product's operands are the narrowed features and weights; narrowing
  changes nothing on exact values, and a contraction of the features' second axis with the weights' first axis is the
  matrix product, so the output array holds the reference's product of the same arguments. The region writes only its
  output array: the index vectors, the edge weights and the arguments keep their contents.
-/
import proofs.«132132_j15530601743096_1_alg».proof.Proof.Stage0
import proofs.«132132_j15530601743096_1_alg».proof.Proof.Products

noncomputable section

namespace Cert.KernelIdeal.Stage1

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

open Cert.KernelIdeal.Stage0 (a0 a1 a2 a3 a4 a5)

/-- After the first product its output array is the features times the first weight matrix. -/
theorem prod (c : Dev nD) :
    W4 m ρ c (Proc.devRef .tc main_v34) = val_main_v7 (F := Ideal) (a0 m c) (a2 m c) := by
  refine (W4_arr m ρ c 2).trans ((Products.final0 (V3 m ρ) c).trans ?_)
  show Cert.LibMatProd.matProd (M := 100000) (K := 128) (N := 128) (W3 m ρ c (Proc.devRef .tc main_v32)) (W3 m ρ c (Proc.devRef .tc main_v33)) = _
  rw [Stage0.lhs, Stage0.rhs]
  unfold val_main_v7
  exact (Cert.LibMatProd.host_dot_eq Cert.ReferenceIdeal.dot_S100000x128_S128x128_S100000x128_1_0_0_1_n_n rfl rfl rfl rfl rfl rfl
    (a0 m c) (a2 m c)).symm

theorem src (c : Dev nD) : W4 m ρ c (Proc.devRef .tc main_v3) = val_main_v3 (F := Ideal) (a1 m c) :=
  (W4_of_ne m ρ c main_v3 (by decide)).trans (Stage0.src m ρ c)
theorem dst (c : Dev nD) : W4 m ρ c (Proc.devRef .tc main_v6) = val_main_v6 (F := Ideal) (a1 m c) :=
  (W4_of_ne m ρ c main_v6 (by decide)).trans (Stage0.dst m ρ c)
theorem weight (c : Dev nD) : W4 m ρ c (Proc.devRef .tc main_v31) = val_main_v32 (F := Ideal) (a1 m c) :=
  (W4_of_ne m ρ c main_v31 (by decide)).trans (Stage0.weight m ρ c)
theorem keep3 (c : Dev nD) : W4 m ρ c (Proc.devRef .tc main_arg3) = a3 m c :=
  (W4_of_ne m ρ c main_arg3 (by decide)).trans (Stage0.keep3 m ρ c)
theorem keep4 (c : Dev nD) : W4 m ρ c (Proc.devRef .tc main_arg4) = a4 m c :=
  (W4_of_ne m ρ c main_arg4 (by decide)).trans (Stage0.keep4 m ρ c)
theorem keep5 (c : Dev nD) : W4 m ρ c (Proc.devRef .tc main_arg5) = a5 m c :=
  (W4_of_ne m ρ c main_arg5 (by decide)).trans (Stage0.keep5 m ρ c)

end Cert.KernelIdeal.Stage1

end
-- ==== Proof.Stage2.lean ====
/-
  Between the two products. Each node's row of the first product is gathered at the source of every edge, scaled by
  the edge's weight and added up at the edge's target; the first bias is added to every row and negative entries are
  cut to zero. That array, narrowed, is the second product's left operand, and the second weight matrix, narrowed, its
  right operand. The reference applies the same operations to the same first product, so the values agree stage by stage.
-/
import proofs.«132132_j15530601743096_1_alg».proof.Proof.Stage1

noncomputable section

namespace Cert.KernelIdeal.Stage2

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

open Cert.KernelIdeal.Stage0 (a0 a1 a2 a3 a4 a5)

/-- The second product's left operand: the first layer's activations, narrowed. -/
theorem lhs (c : Dev nD) :
    W7 m ρ c (Proc.devRef .tc main_v52)
      = truncf (F := Ideal) (s := S100000x128) (φ := .f32) .bf16 (val_main_v49 (F := Ideal) (a0 m c) (a1 m c) (a2 m c) (a3 m c)) Facts₀.bitsLt_bf16_f32 := by
  dsimp only [W7, W6, W5, hostOps1_2, hostOps1_1, hostOps1]
  read_back
  rw [Stage1.prod, Stage1.src, Stage1.dst, Stage1.weight, Stage1.keep3]
  simp only [Cert.Lib.ofBuf_toBuf, Cert.Lib.toBuf_ofBuf, Casts.to_v16, Casts.to_v51, Casts.to_v71, Casts.of_v12, Casts.of_v15,
    Casts.of_cst_3, Casts.of_v50, Casts.of_v70]
  rfl

/-- The second product's right operand: the second weight matrix, narrowed. -/
theorem rhs (c : Dev nD) : W7 m ρ c (Proc.devRef .tc main_v53) = truncf (F := Ideal) (s := S128x16) (φ := .f32) .bf16 (a4 m c) Facts₀.bitsLt_bf16_f32 := by
  dsimp only [W7, W6, W5, hostOps1_2, hostOps1_1, hostOps1]
  read_back
  rw [Stage1.keep4]

theorem src (c : Dev nD) : W7 m ρ c (Proc.devRef .tc main_v3) = val_main_v3 (F := Ideal) (a1 m c) := by
  dsimp only [W7, W6, W5, hostOps1_2, hostOps1_1, hostOps1]
  read_back
  exact Stage1.src m ρ c
theorem dst (c : Dev nD) : W7 m ρ c (Proc.devRef .tc main_v6) = val_main_v6 (F := Ideal) (a1 m c) := by
  dsimp only [W7, W6, W5, hostOps1_2, hostOps1_1, hostOps1]
  read_back
  exact Stage1.dst m ρ c
theorem weight (c : Dev nD) : W7 m ρ c (Proc.devRef .tc main_v31) = val_main_v32 (F := Ideal) (a1 m c) := by
  dsimp only [W7, W6, W5, hostOps1_2, hostOps1_1, hostOps1]
  read_back
  exact Stage1.weight m ρ c
theorem keep5 (c : Dev nD) : W7 m ρ c (Proc.devRef .tc main_arg5) = a5 m c := by
  dsimp only [W7, W6, W5, hostOps1_2, hostOps1_1, hostOps1]
  read_back
  exact Stage1.keep5 m ρ c

end Cert.KernelIdeal.Stage2

end
-- ==== Proof.Products1.lean ====
/-
  What the second row-tiled product leaves in its output array: as for the first, point t of ten multiplies rows
  10000·t … 10000·t + 9999 of the left array (128 columns) by the whole right array (128 by 16) and writes the band back
  to the same rows of the output; the bands cover all 100000 rows, so the output array ends as the product of the two
  whole arrays, entry (p, q) the sum over k of left (p, k) · right (k, q).
-/
import proofs.«132132_j15530601743096_1_alg».proof.Proof.Gen.KernelIdeal.Frame
import proofs.«132132_j15530601743096_1_alg».proof.Proof.LibMatProd
import Idealize.ShloMosaic.Lib.Pipeline.Value

noncomputable section

namespace Cert.KernelIdeal.Products1

open Cert.KernelIdeal Cert.KernelIdeal.Gen Idealize.ShloMosaic Idealize.ShloMosaic.TcCoe Idealize.ShloMosaic.ValueIdx Idealize.SL.Sem
open Idealize.ShloMosaic.Pipeline (Dat)
open Cert.LibMatProd Cert.LibPlainDot

theorem off_zero : (![0, 0] : Fin 2 → Nat) = fun _ => 0 := funext fun a => by fin_cases a <;> rfl

/-- One point's arithmetic: the matrix unit's product of the two loaded blocks into a zero accumulator is their
    matrix product. -/
theorem band1 (x0 : FVec Ideal S10000x128 .bf16) (x1 : FVec Ideal S128x16 .bf16) :
    k1_pay1 (F := Ideal) x0 x1 = matProd (M := 10000) (K := 128) (N := 16) x0 x1 := by
  funext j
  obtain ⟨p, q, rfl⟩ : ∃ (p : Fin 10000) (q : Fin 16), j = ix2 p q := ⟨j 0, j 1, eq_ix2 j⟩
  show matmul (F := Ideal) dot_S10000x128_S128x16_S10000x16_1_0_0_1_n_n none (shapeCast S10000x128 x0 Facts₀.shapeCasts_S10000x128_S10000x128)
      (shapeCast S128x16 x1 Facts₀.shapeCasts_S128x16_S128x16) (constant S10000x16 .f32 0x00000000#32) (ix2 p q) = _
  rw [shapeCast_self, shapeCast_self, matProd_apply]
  refine (Ideal.matmul_constant_zero_apply dot_S10000x128_S128x16_S10000x16_1_0_0_1_n_n none _ _ (ix2 p q)).trans ?_
  exact plain_sum dot_S10000x128_S128x16_S10000x16_1_0_0_1_n_n rfl rfl rfl rfl rfl rfl x0 x1 p q

/-- The printed block indices over the grid: the left operand and the output move down one band per point, the right
    operand stays. -/
theorem where1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Point t's left block holds rows 10000·t … of the left array. -/
theorem left1 (c : Dev nD) (t : Fin cfg1.N) (p : Fin 10000) (k : Fin 128) (hp : t.val * 10000 + p.val < 100000) :
    iblk1 V c 0 t (ix2 p k) = V c main_v52 (ix2 ⟨t.val * 10000 + p.val, hp⟩ k) := by
  obtain ⟨e0, e1, -, -, -, -⟩ := where1 t
  show V c main_v52 (((cfg1.win 0).blk t).view.emb (ix2 p k)) = V c main_v52 (ix2 ⟨t.val * 10000 + p.val, hp⟩ k)
  refine congrArg (V c main_v52) (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * k.val = k.val; omega

/-- Point t's right block is the whole right array. -/
theorem right1 (c : Dev nD) (t : Fin cfg1.N) (z : S128x16.Idx) : iblk1 V c 1 t z = V c main_v53 z := by
  obtain ⟨-, -, e2, e3, -, -⟩ := where1 t
  show V c main_v53 (((cfg1.win 1).blk t).view.emb z) = V c main_v53 z
  refine congrArg (V c main_v53) (funext fun a => Fin.ext ?_)
  match a with
  | ⟨0, _⟩ => show win1_1.index t (0 : Fin 2) * 128 + 1 * (z 0).val = (z 0).val; omega
  | ⟨1, _⟩ => show win1_1.index t (1 : Fin 2) * 16 + 1 * (z 1).val = (z 1).val; omega

/-- What point t writes back is band t of the product of the two whole arrays. -/
theorem flushed1 (c : Dev nD) (t : Fin cfg1.N) :
    (dat1 V c).flushed 2 t = ((cfg1.win 2).blk t).view.read (Elt Ideal)
      (matProd (M := 100000) (K := 128) (N := 16) (V c main_v52) (V c main_v53)) := by
  show (cfg1.win 2).cut (grid1.coords t) ((dat1 V c).after 2 t) = _
  rw [after1_2]
  unfold out1_2
  rw [View.canon_unit_zero off_zero]
  simp only [View.ld_unit_zero (S := S10000x128) off_zero, View.ld_unit_zero (S := S128x16) off_zero]
  rw [band1]
  obtain ⟨-, -, -, -, e4, e5⟩ := where1 t
  funext y
  show matProd (M := 10000) (K := 128) (N := 16) (iblk1 V c 0 t) (iblk1 V c 1 t) y
    = matProd (M := 100000) (K := 128) (N := 16) (V c main_v52) (V c main_v53) (((cfg1.win 2).blk t).view.emb y)
  refine matProd_rows (V c main_v52) (V c main_v53) (iblk1 V c 0 t) (iblk1 V c 1 t) (t.val * 10000)
    (fun p k hp => left1 V c t p k hp) (fun z => right1 V c t z) y _ ?_ ?_
  · show win1_2.index t (0 : Fin 2) * 10000 + 1 * (y 0).val = t.val * 10000 + (y 0).val; omega
  · show win1_2.index t (1 : Fin 2) * 16 + 1 * (y 1).val = (y 1).val; omega

/-- An index of the output array lies in point t's block iff each coordinate lies in the block's range. -/
theorem mem_band1 (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v54).slice (win1_2.rect t)).set ↔ _
  rw [View.set_slice_whole, Rect.mem_set_unit]
  exact Iff.rfl

/-- Row r of the output lies in the band of point r / 10000. -/
theorem cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  let t : Fin cfg1.N := ⟨(i 0).val / 10000, by rw [hN]; omega⟩
  obtain ⟨-, -, -, -, e4, e5⟩ := where1 t
  have e4' : win1_2.index t (0 : Fin 2) = (i 0).val / 10000 := e4
  refine ⟨t, flush1_2 t, ?_⟩
  rw [mem_band1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The output array after the ten points: the product of the two whole arrays as the region found them. -/
theorem final1 (c : Dev nD) :
    (dat1 V c).arrAt 2 cfg1.N = matProd (M := 100000) (K := 128) (N := 16) (V c main_v52) (V c main_v53) :=
  (dat1 V c).arrAt_eq_of_cover 2 _ (fun t _ => flushed1 V c t) cover1

end Cert.KernelIdeal.Products1

end
-- ==== Proof.Stage3.lean ====
/-
  The second product and what survives it. Its operands are the narrowed first-layer activations and the narrowed
  second weight matrix; as for the first product, the output array holds the matrix product of the exact operands,
  which is the reference's second product. The index vectors, the edge weights and the second bias are untouched.
-/
import proofs.«132132_j15530601743096_1_alg».proof.Proof.Stage2
import proofs.«132132_j15530601743096_1_alg».proof.Proof.Products1

noncomputable section

namespace Cert.KernelIdeal.Stage3

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

open Cert.KernelIdeal.Stage0 (a0 a1 a2 a3 a4 a5)

/-- The matrix product of two narrowed operands is the reference's contraction of the operands themselves. -/
theorem narrowed_product (X : FVec Ideal S100000x128 .f32) (Y : FVec Ideal S128x16 .f32) (h : FTy.bf16.bits < FTy.f32.bits) :
    Cert.LibMatProd.matProd (M := 100000) (K := 128) (N := 16) (truncf .bf16 X h) (truncf .bf16 Y h)
      = Host.dotGeneral (F := Ideal) Cert.ReferenceIdeal.dot_S100000x128_S128x16_S100000x16_1_0_0_1_n_n none X Y :=
  (Cert.LibMatProd.host_dot_eq Cert.ReferenceIdeal.dot_S100000x128_S128x16_S100000x16_1_0_0_1_n_n rfl rfl rfl rfl rfl rfl X Y).symm

/-- After the second product its output array is the activations times the second weight matrix. -/
theorem prod (c : Dev nD) :
    W8 m ρ c (Proc.devRef .tc main_v54) = val_main_v50 (F := Ideal) (a0 m c) (a1 m c) (a2 m c) (a3 m c) (a4 m c) := by
  refine (W8_arr m ρ c 2).trans ((Products1.final1 (V7 m ρ) c).trans ?_)
  show Cert.LibMatProd.matProd (M := 100000) (K := 128) (N := 16) (W7 m ρ c (Proc.devRef .tc main_v52)) (W7 m ρ c (Proc.devRef .tc main_v53)) = _
  rw [Stage2.lhs, Stage2.rhs]
  unfold val_main_v50
  exact narrowed_product _ _ _

theorem src (c : Dev nD) : W8 m ρ c (Proc.devRef .tc main_v3) = val_main_v3 (F := Ideal) (a1 m c) :=
  (W8_of_ne m ρ c main_v3 (by decide)).trans (Stage2.src m ρ c)
theorem dst (c : Dev nD) : W8 m ρ c (Proc.devRef .tc main_v6) = val_main_v6 (F := Ideal) (a1 m c) :=
  (W8_of_ne m ρ c main_v6 (by decide)).trans (Stage2.dst m ρ c)
theorem weight (c : Dev nD) : W8 m ρ c (Proc.devRef .tc main_v31) = val_main_v32 (F := Ideal) (a1 m c) :=
  (W8_of_ne m ρ c main_v31 (by decide)).trans (Stage2.weight m ρ c)
theorem keep5 (c : Dev nD) : W8 m ρ c (Proc.devRef .tc main_arg5) = a5 m c :=
  (W8_of_ne m ρ c main_arg5 (by decide)).trans (Stage2.keep5 m ρ c)

end Cert.KernelIdeal.Stage3

end
-- ==== Proof.Stage4.lean ====
/-
  After the second product. Each node's row of it is gathered at the source of every edge, scaled by the edge's weight
  and added up at the edge's target; the second bias is added, and every row is replaced by its logarithmic softmax
  (the row minus its maximum, minus the logarithm of the sum of the exponentials of that difference). The reference
  applies the same operations to the same second product — it recomputes the edge weights, by the same operations of the
  same index vectors — so the program's result is the reference's result as a function of the six arguments.
-/
import proofs.«132132_j15530601743096_1_alg».proof.Proof.Stage3

noncomputable section

namespace Cert.KernelIdeal.Stage4

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

open Cert.KernelIdeal.Stage0 (a0 a1 a2 a3 a4 a5)

/-- The edge weights the reference computes for its second layer are those of its first. -/
theorem weight_again (x1 : (⟨Cert.ReferenceIdeal.S2x1600000, .i32⟩ : BufTy).Contents (Elt Ideal)) :
    val_main_v75 (F := Ideal) x1 = val_main_v32 (F := Ideal) x1 := rfl

/-- The program's result is the reference's function of the six arguments. -/
theorem out (c : Dev nD) :
    W10 m ρ c (Proc.devRef .tc main_v71)
      = val_main_v92 (F := Ideal) (a0 m c) (a1 m c) (a2 m c) (a3 m c) (a4 m c) (a5 m c) := by
  dsimp only [W10, W9, hostOps2_1, hostOps2]
  read_back
  rw [Stage3.prod, Stage3.src, Stage3.dst, Stage3.weight, Stage3.keep5]
  simp only [Cert.Lib.ofBuf_toBuf, Cert.Lib.toBuf_ofBuf, Casts.to_v16, Casts.to_v51, Casts.to_v71, Casts.of_v12, Casts.of_v15,
    Casts.of_cst_3, Casts.of_v50, Casts.of_v70]
  rfl

end Cert.KernelIdeal.Stage4

end
-- ==== Proof.lean ====
/-
  Two graph-convolution layers followed by a row-wise logarithmic softmax, on 100000 nodes and 1600000 edges (plus one
  self loop per node). A layer multiplies the node features by a weight matrix, gathers each edge's source row, scales
  it by the edge's weight — the inverse square roots of the degrees at its two ends — adds the scaled rows up at the
  edge's target and adds a bias; the first layer is followed by a cut of negative entries to zero.
  The kernel program computes the two feature-times-weight products as row-tiled products on the matrix unit (ten bands
  of 10000 rows, operands narrowed to bf16) and everything else by host operations; the reference computes the products
  as host contractions and recomputes the edge weights for the second layer. Over the exact extended reals narrowing is
  the identity, a band of rows of a matrix product is the product of the band, and the bands cover the rows; the host
  operations around the products are the same operations in both programs. So both programs end with one and the same
  function of the six arguments in their result arrays. No law of arithmetic beyond that is used, and finiteness of the
  inputs is not needed. The idealization rewrote no operation of the kernel, so there is nothing to preserve.
-/
import proofs.«132132_j15530601743096_1_alg».proof.Defs
import proofs.«132132_j15530601743096_1_alg».proof.Proof.Gen.Kernel
import proofs.«132132_j15530601743096_1_alg».proof.Proof.Gen.Kernel.Skeleton
import proofs.«132132_j15530601743096_1_alg».proof.Proof.Gen.Kernel.Launch
import proofs.«132132_j15530601743096_1_alg».proof.Proof.Gen.Kernel.Points
import proofs.«132132_j15530601743096_1_alg».proof.Proof.Gen.Kernel.Frame
import proofs.«132132_j15530601743096_1_alg».proof.Proof.Gen.KernelIdeal
import proofs.«132132_j15530601743096_1_alg».proof.Proof.Gen.KernelIdeal.Skeleton
import proofs.«132132_j15530601743096_1_alg».proof.Proof.Gen.KernelIdeal.Launch
import proofs.«132132_j15530601743096_1_alg».proof.Proof.Gen.KernelIdeal.Points
import proofs.«132132_j15530601743096_1_alg».proof.Proof.Gen.KernelIdeal.Frame
import proofs.«132132_j15530601743096_1_alg».proof.Proof.Gen.ReferenceIdeal
import proofs.«132132_j15530601743096_1_alg».proof.Proof.Gen.Pre_finite_inputs
import proofs.«132132_j15530601743096_1_alg».proof.Proof.RefRun
import proofs.«132132_j15530601743096_1_alg».proof.Proof.RefRead
import proofs.«132132_j15530601743096_1_alg».proof.Proof.RefValue
import proofs.«132132_j15530601743096_1_alg».proof.Proof.ValueRun
import proofs.«132132_j15530601743096_1_alg».proof.Proof.Stage4
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories that agree on the six arguments both programs end with the same result array: the reference's
    staged function of the arguments. -/
theorem algebraic : Cert.algebraic_KernelIdeal_ReferenceIdeal := by
  intro m ρ m' ρ' _ hagree
  refine ⟨fun c => Cert.ReferenceIdeal.ReadP.val_main_v92 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stage4.out m ρ c), (h c).2⟩)
      (Cert.KernelIdeal.ValueRun.run (F := Ideal) m ρ)
  · refine (θ_run Cert.ReferenceIdeal.defs _ _).mono (fun _ h c => ⟨?_, (h c).2⟩)
      (Cert.ReferenceIdeal.RunP.run (F := Ideal) m' ρ')
    rw [(h c).1, Cert.ReferenceIdeal.RefValue.result_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
